-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x64 : Shape := ⟨2, ![2048, 64]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 12
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x1, .f32⟩
  | .local _ .vmem, ⟨5, _⟩ => ⟨S2048x1, .f32⟩
  | .local _ .vmem, ⟨6, _⟩ => ⟨S1x2048, .f32⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S2048x64_S2048x64_0_0 : ∀ a, (![0, 0] : Fin 2 → Nat) a + S2048x64.size a ≤ S2048x64.size a
  h_S2048x64 : 0 < S2048x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x8192.size a
  hwx0_4 : ∀ i : grid0.Coords, EltTy.bits .f32 = 32 ∨ (Rect.block (s := S8192x8192) S2048x2048.size (cc0_transform_4 i) (hinb0_4 i)).WholeWords (EltTy.packing .f32)

variable [Facts₀]

def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.RbfSpec.lean ====
/-
  The Gaussian (RBF) Gram matrix of two families of 8192 points of dimension 64, over the extended reals.

  For points x_p and y_q the entry (p, q) is  exp(-1 · max((‖x_p‖² + ‖y_q‖²) - 2 · ⟨x_p, y_q⟩, 0)):  the squared
  distance is expanded into the two squared norms and the inner product, clamped at zero from below, negated and
  exponentiated.  The squared norm is the float zero plus the sum of the 64 squares (a sum started from an initial
  value), the inner product the plain sum of the 64 products.  The three literals (2, 0, -1) are kept as the binary
  words both programs spell; nothing here evaluates them.

  Both programs compute exactly this term at every index, with the same grouping of the additions and the same
  order of the factors, so no law of the extended reals (and no finiteness of the inputs) is needed to join them:
  only the way each program lays the norms out (a column, a row) and tiles the matrix differs.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- 8192 points of dimension 64, one per row. -/
abbrev Pts : Shape := ⟨2, ![8192, 64]⟩
/-- The 8192 × 8192 matrix of pairs. -/
abbrev Pairs : Shape := ⟨2, ![8192, 8192]⟩

/-- The squared norm of point `r`: the float zero plus the sum over the 64 coordinates of the square. -/
def sqnorm (x : Pts.Idx → EReal) (r : Fin 8192) : EReal :=
  Ideal.ofBits .f32 0x00000000#32 + ∑ k : Fin 64, x (ix2 r k) * x (ix2 r k)

/-- The inner product of point `p` of `x` with point `q` of `y`. -/
def inner (x y : Pts.Idx → EReal) (p q : Fin 8192) : EReal :=
  ∑ k : Fin 64, x (ix2 p k) * y (ix2 q k)

/-- One entry from the two squared norms `a`, `b` and the inner product `g`:
    exp(-1 · max((a + b) - 2 · g, 0)). -/
def cell (a b g : EReal) : EReal :=
  Ideal.exp (Ideal.ofBits .f32 0xBF800000#32
    * max ((a + b) - Ideal.ofBits .f32 0x40000000#32 * g) (Ideal.ofBits .f32 0x00000000#32))

/-- Entry (p, q) of the Gram matrix. -/
def entry (x y : Pts.Idx → EReal) (p q : Fin 8192) : EReal :=
  cell (sqnorm x p) (sqnorm y q) (inner x y p q)

/-- The whole matrix, index by index. -/
def G (x y : Pts.Idx → EReal) : Pairs.Idx → EReal := fun i => entry x y (i 0) (i 1)

theorem G_ix2 (x y : Pts.Idx → EReal) (p q : Fin 8192) : G x y (ix2 p q) = entry x y p q := rfl

end Cert.Rbf

end
-- ==== Proof.RbfReference.lean ====
/-
  The reference program computes the Gram matrix of RbfSpec.lean.

  Its last stage, read at the index (p, q) one operation at a time, is
  exp(-1 · max((x2 p + y2 q) - 2 · dot p q, 0)), where x2 is the host's sum over the second axis of x·x broadcast
  along a column, y2 the same for y broadcast along a row, and dot the host's contraction of x and y over their second
  axes.  The composed index functions of the broadcasts send (p, q) to row p of x and to row q of y; with those four
  index equations the term is the specification's entry, literally.
-/
import proofs.«172928_j65481071402788_2_alg».proof.Proof.Gen.ReferenceIdeal.Read
import proofs.«172928_j65481071402788_2_alg».proof.Proof.RbfSpec

noncomputable section

open scoped BigOperators

namespace Cert.ReferenceIdeal.RefValue

open Cert.ReferenceIdeal Cert.ReferenceIdeal.Read Idealize.ShloMosaic Idealize.ShloMosaic.ValueIdx Cert.Rbf

/-- Through the column broadcast and the broadcast to the full matrix, the summand index of the first norm at (p, q)
    is (p, k). -/
theorem idx_x2 (p q : Fin 8192) (k : Fin 64) :
    idx_main_v1 (idx_main_v5 (idx_main_v7 (ix2 p q))) k = ix2 p k :=
  funext fun a => Fin.ext (by match a with | ⟨0, _⟩ => rfl | ⟨1, _⟩ => rfl)

/-- Through the row broadcast and the broadcast to the full matrix, the summand index of the second norm at (p, q)
    is (q, k). -/
theorem idx_y2 (p q : Fin 8192) (k : Fin 64) :
    idx_main_v3 (idx_main_v6 (idx_main_v8 (ix2 p q))) k = ix2 q k :=
  funext fun a => Fin.ext (by match a with | ⟨0, _⟩ => rfl | ⟨1, _⟩ => rfl)

/-- The contraction's left factor at (p, q) and k is x at (p, k). -/
theorem idx_l (p q : Fin 8192) (k : Fin 64) : lidx_main_v4 (ix2 p q) k = ix2 p k :=
  funext fun a => Fin.ext (by match a with | ⟨0, _⟩ => rfl | ⟨1, _⟩ => rfl)

/-- The contraction's right factor at (p, q) and k is y at (q, k). -/
theorem idx_r (p q : Fin 8192) (k : Fin 64) : ridx_main_v4 (ix2 p q) k = ix2 q k :=
  funext fun a => Fin.ext (by match a with | ⟨0, _⟩ => rfl | ⟨1, _⟩ => rfl)

/-- The reference's result, as a function of its two arguments, is the Gram matrix `G`. -/
theorem result_eq (x y : Pts.Idx → EReal) : val_main_v17 (F := Ideal) x y = G x y := by
  funext i
  obtain ⟨p, q, rfl⟩ : ∃ (p q : Fin 8192), i = ix2 p q := ⟨i 0, i 1, eq_ix2 i⟩
  rw [val_main_v17_apply, val_main_v16_apply, val_main_v15_apply, val_main_cst_3_apply, val_main_v14_apply,
    val_main_v13_apply, val_main_cst_2_apply, val_main_v12_apply, val_main_v9_apply, val_main_v7_apply,
    val_main_v5_apply, val_main_v1_apply, val_main_v8_apply, val_main_v6_apply, val_main_v3_apply,
    val_main_v11_apply, val_main_v10_apply, val_main_cst_1_apply, val_main_v4_apply, val_main_cst_apply,
    val_main_cst_0_apply]
  simp only [val_main_v0_apply, val_main_v2_apply, idx_x2, idx_y2, idx_l, idx_r]
  rfl

end Cert.ReferenceIdeal.RefValue

end
-- ==== Proof.RbfNorms.lean ====
/-
  The squared norms as the kernel's region finds them.

  Before its one region the kernel's program sums x·x and y·y over the second axis on the host (the same host sum the
  reference uses) and lays the first out as a column [8192, 1] and the second, through a column and a reshape, as a row
  [1, 8192].  Read at an index, the column at (r, ·) is the squared norm of point r of x and the row at (·, q) the squared
  norm of point q of y: a broadcast along a new unit axis reads its operand at the remaining coordinate, a reshape
  between [8192, 1] and [1, 8192] keeps the row-major position, and the host's sum over one axis started from the float
  zero is that zero plus the sum of the 64 squares.
-/
import proofs.«172928_j65481071402788_2_alg».proof.Proof.Gen.KernelIdeal.Frame
import proofs.«172928_j65481071402788_2_alg».proof.Proof.RbfSpec
import Idealize.ShloMosaic.Lib.Pipeline.Value
import Idealize.ShloMosaic.Lib.ValueIdx
import Idealize.ShloMosaic.PureOps.Ideal.Laws
import Idealize.ShloMosaic.Lib.StableHlo.Run

noncomputable section

open scoped BigOperators

namespace Cert.KernelIdeal.RbfValue

open Cert.KernelIdeal Cert.KernelIdeal.Gen Idealize.ShloMosaic Idealize.ShloMosaic.TcCoe Idealize.SL.Sem
open Idealize.ShloMosaic.ValueIdx Idealize.ShloMosaic.StableHlo Cert.Rbf

/-- The host's sum of x·x over the second axis, from the float zero, at row `r`: the squared norm of point `r`. -/
theorem rowsum_apply (x : FVec Ideal S8192x64 .f32) (r : Fin 8192) :
    Host.reduceAdd (F := Ideal) (mulf x x) (constant S_ .f32 0x00000000#32) reducesTo_S8192x64_S8192_d1 h_S_ (ix1 r)
      = sqnorm x r := by
  generalize hy : mulf x x = y0
  simp only [Host.reduceAdd, Ideal.hostReduceAdd_def]
  rw [Ideal.hostReduceAdd_single reducesTo_S8192x64_S8192_d1 (by decide)]
  unfold sqnorm
  refine congrArg (_ + ·) (Finset.sum_congr rfl fun k _ => ?_)
  subst hy
  exact congrArg (fun j => x j * x j) (funext fun a => Fin.ext (by match a with | ⟨0, _⟩ => rfl | ⟨1, _⟩ => rfl))

/-- A vector [8192] laid out as the column [8192, 1], at (r, ·): the vector at r. -/
theorem col_apply (v : FVec Ideal S8192 .f32) (r : Fin 8192) (z : Fin 1) :
    broadcastInDim S8192x1 ![0] bcast_S8192_S8192x1_0 v (ix2 r z) = v (ix1 r) :=
  broadcastInDim_apply _ bcast_S8192_S8192x1_0 v (ix2 r z) (ix1 r) (fun a => match a with
    | ⟨0, _⟩ => by show r.val = if (8192 : Nat) = 1 then 0 else r.val; rw [if_neg (by decide)])

/-- The column [8192, 1] reshaped to the row [1, 8192], at (·, q): the column at (q, 0) — both sit at row-major
    position q. -/
theorem row_apply (w : FVec Ideal S8192x1 .f32) (z : Fin 1) (q : Fin 8192) :
    shapeCast S1x8192 w shapeCasts_S8192x1_S1x8192 (ix2 z q) = w (ix2 q (0 : Fin 1)) := by
  refine shapeCast_apply w shapeCasts_S8192x1_S1x8192 (ix2 z q) (ix2 q (0 : Fin 1)) ?_
  rw [Shape.rowMajor_val_two, Shape.rowMajor_val_two]
  show q.val * 1 + 0 = z.val * 8192 + q.val
  have hz : z.val = 0 := by have := z.isLt; omega
  omega

variable (m : (ℓ : Loc nD τ sig) → Buf (Elt Ideal) ℓ)

/-- The array window 2 stages: the column of the host's row sums of x·x. -/
theorem V_x2 (c : Dev nD) :
    (V m c main_v2 : S8192x1.Idx → EReal)
      = broadcastInDim S8192x1 ![0] bcast_S8192_S8192x1_0
          (Host.reduceAdd (F := Ideal) (mulf (m ((c : Thread nD τ).loc main_arg0)) (m ((c : Thread nD τ).loc main_arg0)))
            (constant S_ .f32 0x00000000#32) reducesTo_S8192x64_S8192_d1 h_S_) := by
  dsimp only [Gen.V, Gen.hostOps0]
  after_results

/-- The array window 3 stages: the column of the host's row sums of y·y, reshaped to a row. -/
theorem V_y2 (c : Dev nD) :
    (V m c main_v6 : S1x8192.Idx → EReal)
      = shapeCast S1x8192 (broadcastInDim S8192x1 ![0] bcast_S8192_S8192x1_0
          (Host.reduceAdd (F := Ideal) (mulf (m ((c : Thread nD τ).loc main_arg1)) (m ((c : Thread nD τ).loc main_arg1)))
            (constant S_ .f32 0x00000000#32) reducesTo_S8192x64_S8192_d1 h_S_)) shapeCasts_S8192x1_S1x8192 := by
  dsimp only [Gen.V, Gen.hostOps0]
  after_results
  rfl

/-- Window 2's array at (r, ·) is the squared norm of point r of the first argument. -/
theorem V_x2_apply (c : Dev nD) (r : Fin 8192) (z : Fin 1) :
    (V m c main_v2 : S8192x1.Idx → EReal) (ix2 r z) = sqnorm (m ((c : Thread nD τ).loc main_arg0)) r := by
  rw [V_x2, col_apply, rowsum_apply]

/-- Window 3's array at (·, q) is the squared norm of point q of the second argument. -/
theorem V_y2_apply (c : Dev nD) (z : Fin 1) (q : Fin 8192) :
    (V m c main_v6 : S1x8192.Idx → EReal) (ix2 z q) = sqnorm (m ((c : Thread nD τ).loc main_arg1)) q := by
  rw [V_y2, row_apply, col_apply, rowsum_apply]

end Cert.KernelIdeal.RbfValue

end
-- ==== Proof.RbfPayload.lean ====
/-
  One tile of the kernel, read at an entry.

  At a grid point the body holds a [2048, 64] block of x, a [2048, 64] block of y, a [2048, 1] column of squared norms
  and a [1, 2048] row of squared norms.  It contracts the two point blocks over the 64 coordinates on the matrix unit
  into a zero accumulator, broadcasts the column along the rows and the row along the columns, and combines the three
  pointwise.  At the entry (p, q) of the tile:

    * the broadcast column is the column at (p, 0) and the broadcast row is the row at (0, q);
    * the matrix product into the zero accumulator is the plain sum over k of (block of x)(p, k) · (block of y)(q, k) —
      the contraction has one axis, the second of both operands, so its index set is the 64 coordinates;
    * the rest is pointwise and is the specification's `cell` of those three numbers.
-/
import proofs.«172928_j65481071402788_2_alg».proof.Proof.Gen.KernelIdeal.Skeleton
import proofs.«172928_j65481071402788_2_alg».proof.Proof.RbfSpec
import Idealize.ShloMosaic.Lib.Pipeline.Value
import Idealize.ShloMosaic.Lib.ValueIdx
import Idealize.ShloMosaic.PureOps.Ideal.Laws

noncomputable section

open scoped BigOperators

namespace Cert.KernelIdeal.RbfValue

open Cert.KernelIdeal Cert.KernelIdeal.Gen Idealize.ShloMosaic Idealize.ShloMosaic.ValueIdx Cert.Rbf

/-- The tile's contraction record: [2048, 64] × [2048, 64] → [2048, 2048] over the second axis of both. -/
local notation "tileDot" => dot_S2048x64_S2048x64_S2048x2048_1_1_0_0_n_n

/-- The column of norms broadcast along the rows of the tile, at (p, q): the column at (p, 0). -/
theorem bcast_col (v : FVec Ideal S2048x1 .f32) (p q : Fin 2048) :
    broadcastTo S2048x2048 (shapeCast S2048x1 v shapeCasts_S2048x1_S2048x1) broadcasts_S2048x1_S2048x2048 (ix2 p q)
      = v (ix2 p (0 : Fin 1)) := by
  rw [shapeCast_self]
  exact broadcastTo_apply v broadcasts_S2048x1_S2048x2048 (ix2 p q) (ix2 p (0 : Fin 1)) (fun a => match a with
    | ⟨0, _⟩ => by show p.val = if (2048 : Nat) = 1 then 0 else p.val; rw [if_neg (by decide)]
    | ⟨1, _⟩ => by show 0 = if (1 : Nat) = 1 then 0 else q.val; rw [if_pos rfl])

/-- The row of norms broadcast along the columns of the tile, at (p, q): the row at (0, q). -/
theorem bcast_row (v : FVec Ideal S1x2048 .f32) (p q : Fin 2048) :
    broadcastTo S2048x2048 (shapeCast S1x2048 v shapeCasts_S1x2048_S1x2048) broadcasts_S1x2048_S2048x2048 (ix2 p q)
      = v (ix2 (0 : Fin 1) q) := by
  rw [shapeCast_self]
  exact broadcastTo_apply v broadcasts_S1x2048_S2048x2048 (ix2 p q) (ix2 (0 : Fin 1) q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- The left operand's row coordinate is the output's row. -/
theorem lhs_row (i : S2048x2048.Idx) (k : (tileDot).contr.Idx) : ((tileDot).lhsIdx i k 0).val = (i 0).val := by
  unfold DotDims.lhsIdx
  rw [dif_neg (show ¬(0 : Fin S2048x64.rank) ∈ (tileDot).lhsBatch by decide),
    dif_pos (show (0 : Fin S2048x64.rank) ∈ (tileDot).lhsNonContracting by decide)]
  rfl

/-- The left operand's second coordinate is the contraction's one coordinate. -/
theorem lhs_col (i : S2048x2048.Idx) (k : (tileDot).contr.Idx) :
    ((tileDot).lhsIdx i k 1).val = (k ⟨0, by decide⟩).val :=
  (tileDot).lhsIdx_val_of_single rfl i k

/-- The right operand's row coordinate is the output's column. -/
theorem rhs_row (i : S2048x2048.Idx) (k : (tileDot).contr.Idx) : ((tileDot).rhsIdx i k 0).val = (i 1).val := by
  unfold DotDims.rhsIdx
  rw [dif_neg (show ¬(0 : Fin S2048x64.rank) ∈ (tileDot).rhsBatch by decide),
    dif_pos (show (0 : Fin S2048x64.rank) ∈ (tileDot).rhsNonContracting by decide)]
  rfl

/-- The right operand's second coordinate is the contraction's one coordinate. -/
theorem rhs_col (i : S2048x2048.Idx) (k : (tileDot).contr.Idx) :
    ((tileDot).rhsIdx i k 1).val = (k ⟨0, by decide⟩).val :=
  (tileDot).rhsIdx_val_of_single rfl i k

/-- The matrix product of the two point blocks into the zero accumulator, at (p, q): the inner product of row p of
    the first block with row q of the second. -/
theorem mm_apply (a b : FVec Ideal S2048x64 .f32) (p q : Fin 2048) :
    matmul tileDot (some .fp32) a b (constant S2048x2048 .f32 0x00000000#32) (ix2 p q)
      = ∑ k : Fin 64, a (ix2 p k) * b (ix2 q k) := by
  show FloatOps.matmul tileDot (some .fp32) a b (constant S2048x2048 .f32 0x00000000#32) (ix2 p q) = _
  rw [Ideal.matmul_constant_zero_apply, ← Equiv.sum_comp (contrEquiv1 tileDot 64 rfl rfl).symm]
  refine Finset.sum_congr rfl fun k _ => ?_
  have hk := contrEquiv1_symm_val tileDot 64 rfl rfl k
  have el : (tileDot).lhsIdx (ix2 p q) ((contrEquiv1 tileDot 64 rfl rfl).symm k) = ix2 p k :=
    funext fun d => Fin.ext (by
      match d with
      | ⟨0, _⟩ => exact lhs_row _ _
      | ⟨1, _⟩ => exact (lhs_col _ _).trans hk)
  have er : (tileDot).rhsIdx (ix2 p q) ((contrEquiv1 tileDot 64 rfl rfl).symm k) = ix2 q k :=
    funext fun d => Fin.ext (by
      match d with
      | ⟨0, _⟩ => exact rhs_row _ _
      | ⟨1, _⟩ => exact (rhs_col _ _).trans hk)
  rw [el, er]

/-- THE TILE AT AN ENTRY: the body's stored value at (p, q) is `cell` of the column at (p, 0), the row at (0, q) and
    the inner product of row p of the first block with row q of the second. -/
theorem pay_apply (x0 x1 : Vec Ideal S2048x64 .f32) (x2 : Vec Ideal S2048x1 .f32) (x3 : Vec Ideal S1x2048 .f32)
    (p q : Fin 2048) :
    k0_pay1 x0 x1 x2 x3 (ix2 p q)
      = cell (x2 (ix2 p (0 : Fin 1))) (x3 (ix2 (0 : Fin 1) q)) (∑ k : Fin 64, x0 (ix2 p k) * x1 (ix2 q k)) := by
  rw [← bcast_col x2 p q, ← bcast_row x3 p q, ← mm_apply x0 x1 p q]
  rfl

end Cert.KernelIdeal.RbfValue

end
-- ==== Proof.RbfBlocks.lean ====
/-
  From tiles to the whole matrix.

  The grid is 4 × 4; at the point with block coordinates (bi, bj) the region stages rows 2048·bi … of x, rows 2048·bj …
  of y, the same rows of the column of norms of x, the same columns of the row of norms of y, and writes back the
  [2048, 2048] tile at (bi, bj) of the result.  So the entry (p, q) of the tile written at that point is the entry
  (2048·bi + p, 2048·bj + q) of the Gram matrix: the blocks of x and y read at (p, k), (q, k) are the arguments at
  (2048·bi + p, k), (2048·bj + q, k), the norm blocks read at (p, 0), (0, q) are the squared norms of those two points,
  and the tile's value there is `cell` of exactly these (RbfPayload.lean).  The sixteen tiles cover the matrix — the
  tile covering (P, Q) is the one at (P / 2048, Q / 2048) — so after the run the result array is the Gram matrix.
-/
import proofs.«172928_j65481071402788_2_alg».proof.Proof.Gen.KernelIdeal.Value
import proofs.«172928_j65481071402788_2_alg».proof.Proof.RbfSpec
import proofs.«172928_j65481071402788_2_alg».proof.Proof.RbfNorms
import proofs.«172928_j65481071402788_2_alg».proof.Proof.RbfPayload

noncomputable section

open scoped BigOperators

namespace Cert.KernelIdeal.RbfValue

open Cert.KernelIdeal Cert.KernelIdeal.Gen Idealize.ShloMosaic Idealize.ShloMosaic.TcCoe Idealize.SL.Sem
open Idealize.ShloMosaic.Pipeline (Dat)
open Idealize.ShloMosaic.ValueIdx Cert.Rbf

variable (m : (ℓ : Loc nD τ sig) → Buf (Elt Ideal) ℓ) (ρ : Dev nD → PrngReg)

theorem origin : (![0, 0] : Fin 2 → Nat) = fun _ => 0 := funext fun a => by fin_cases a <;> rfl

/-- The printed index maps over the sixteen grid points: the blocks of x and of its norms move with the tile's row
    block, the blocks of y and of its norms with the tile's column block, and both block coordinates stay below 4. -/
theorem tile_maps : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every tile position is some grid point's. -/
theorem tile_onto : ∀ (b0 b1 : Fin 4), ∃ t : Fin cfg0.N, win0_4.index t = ![b0.val, b1.val] :=
  (by decide +kernel : ∀ (b0 b1 : Fin 4), ∃ t : Fin grid0.N, win0_4.index t = ![b0.val, b1.val])

/-! ## The four input blocks at a point, read where the tile's entry needs them -/

/-- The block of x at (p, k) is the first argument at (2048·bi + p, k). -/
theorem xblk_apply (c : Dev nD) (t : Fin cfg0.N) (p : Fin 2048) (k : Fin 64) (P : Fin 8192)
    (hP : P.val = win0_4.index t (0 : Fin 2) * 2048 + p.val) :
    (iblk m c 0 t : Vec Ideal S2048x64 .f32) (ix2 p k) = m ((c : Thread nD τ).loc main_arg0) (ix2 P k) := by
  obtain ⟨e00, e01, -, -, -, -, -, -, -, -⟩ := tile_maps t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = P.val; omega
  | ⟨1, _⟩ => show win0_0.index t (1 : Fin 2) * 64 + 1 * k.val = k.val; omega

/-- The block of y at (q, k) is the second argument at (2048·bj + q, k). -/
theorem yblk_apply (c : Dev nD) (t : Fin cfg0.N) (q : Fin 2048) (k : Fin 64) (Q : Fin 8192)
    (hQ : Q.val = win0_4.index t (1 : Fin 2) * 2048 + q.val) :
    (iblk m c 1 t : Vec Ideal S2048x64 .f32) (ix2 q k) = m ((c : Thread nD τ).loc main_arg1) (ix2 Q k) := by
  obtain ⟨-, -, e10, e11, -, -, -, -, -, -⟩ := tile_maps t
  unfold iblk
  rw [View.read_apply]
  show V m c main_arg1 (((cfg0.win 1).blk t).view.emb (ix2 q k)) = _
  rw [V_main_arg1]
  refine congrArg _ (funext fun a => Fin.ext ?_)
  match a with
  | ⟨0, _⟩ => show win0_1.index t (0 : Fin 2) * 2048 + 1 * q.val = Q.val; omega
  | ⟨1, _⟩ => show win0_1.index t (1 : Fin 2) * 64 + 1 * k.val = k.val; omega

/-- The block of the column of norms at (p, 0) is the squared norm of point 2048·bi + p of the first argument. -/
theorem x2blk_apply (c : Dev nD) (t : Fin cfg0.N) (p : Fin 2048) (P : Fin 8192)
    (hP : P.val = win0_4.index t (0 : Fin 2) * 2048 + p.val) :
    (iblk m c 2 t : Vec Ideal S2048x1 .f32) (ix2 p (0 : Fin 1)) = sqnorm (m ((c : Thread nD τ).loc main_arg0)) P := by
  obtain ⟨-, -, -, -, e20, e21, -, -, -, -⟩ := tile_maps t
  unfold iblk
  rw [View.read_apply]
  show (V m c main_v2 : S8192x1.Idx → EReal) (((cfg0.win 2).blk t).view.emb (ix2 p (0 : Fin 1))) = _
  have he : ((cfg0.win 2).blk t).view.emb (ix2 p (0 : Fin 1)) = ix2 P (0 : Fin 1) := by
    refine funext fun a => Fin.ext ?_
    match a with
    | ⟨0, _⟩ => show win0_2.index t (0 : Fin 2) * 2048 + 1 * p.val = P.val; omega
    | ⟨1, _⟩ => show win0_2.index t (1 : Fin 2) * 1 + 1 * 0 = 0; omega
  rw [he]
  exact V_x2_apply m c P 0

/-- The block of the row of norms at (0, q) is the squared norm of point 2048·bj + q of the second argument. -/
theorem y2blk_apply (c : Dev nD) (t : Fin cfg0.N) (q : Fin 2048) (Q : Fin 8192)
    (hQ : Q.val = win0_4.index t (1 : Fin 2) * 2048 + q.val) :
    (iblk m c 3 t : Vec Ideal S1x2048 .f32) (ix2 (0 : Fin 1) q) = sqnorm (m ((c : Thread nD τ).loc main_arg1)) Q := by
  obtain ⟨-, -, -, -, -, -, e30, e31, -, -⟩ := tile_maps t
  unfold iblk
  rw [View.read_apply]
  show (V m c main_v6 : S1x8192.Idx → EReal) (((cfg0.win 3).blk t).view.emb (ix2 (0 : Fin 1) q)) = _
  have he : ((cfg0.win 3).blk t).view.emb (ix2 (0 : Fin 1) q) = ix2 (0 : Fin 1) Q := by
    refine funext fun a => Fin.ext ?_
    match a with
    | ⟨0, _⟩ => show win0_3.index t (0 : Fin 2) * 1 + 1 * 0 = 0; omega
    | ⟨1, _⟩ => show win0_3.index t (1 : Fin 2) * 2048 + 1 * q.val = Q.val; omega
  rw [he]
  exact V_y2_apply m c 0 Q

/-! ## What a point writes back -/

/-- The tile at a point, at its entry (p, q), is the Gram matrix's entry (2048·bi + p, 2048·bj + q). -/
theorem tile_entry (c : Dev nD) (t : Fin cfg0.N) (p q : Fin 2048) (P Q : Fin 8192)
    (hP : P.val = win0_4.index t (0 : Fin 2) * 2048 + p.val) (hQ : Q.val = win0_4.index t (1 : Fin 2) * 2048 + q.val) :
    k0_pay1 (iblk m c 0 t) (iblk m c 1 t) (iblk m c 2 t) (iblk m c 3 t) (ix2 p q)
      = entry (m ((c : Thread nD τ).loc main_arg0)) (m ((c : Thread nD τ).loc main_arg1)) P Q := by
  refine (pay_apply (iblk m c 0 t) (iblk m c 1 t) (iblk m c 2 t) (iblk m c 3 t) p q).trans ?_
  rw [x2blk_apply m c t p P hP, y2blk_apply m c t q Q hQ]
  unfold entry Cert.Rbf.inner
  refine congrArg _ (Finset.sum_congr rfl fun k _ => ?_)
  rw [xblk_apply m c t p k P hP, yblk_apply m c t q k Q hQ]

/-- WHAT POINT `t` WRITES BACK is block `t` of the Gram matrix of the two arguments. -/
theorem flushed_eq (c : Dev nD) (t : Fin cfg0.N) :
    (dats m 0 c).flushed 4 t
      = ((cfg0.win 4).blk t).view.read (Elt Ideal)
          (G (m ((c : Thread nD τ).loc main_arg0)) (m ((c : Thread nD τ).loc main_arg1))) := by
  rw [Cert.KernelIdeal.Value.flushed4]
  unfold out0_4
  rw [View.canon_unit_zero origin]
  simp only [View.ld_unit_zero (S := S2048x64) origin, View.ld_unit_zero (S := S2048x1) origin,
    View.ld_unit_zero (S := S1x2048) origin]
  obtain ⟨-, -, -, -, -, -, -, -, b0, b1⟩ := tile_maps t
  funext j
  have hp : (j 0).val < 2048 := (j 0).isLt
  have hq : (j 1).val < 2048 := (j 1).isLt
  have hx : (cfg0.win 4).xinj (grid0.coords t) j = ix2 (⟨(j 0).val, hp⟩ : Fin 2048) (⟨(j 1).val, hq⟩ : Fin 2048) :=
    funext fun a => by match a with | ⟨0, _⟩ => rfl | ⟨1, _⟩ => rfl
  have he : ((cfg0.win 4).blk t).view.emb j
      = ix2 (⟨win0_4.index t (0 : Fin 2) * 2048 + (j 0).val, by omega⟩ : Fin 8192)
          (⟨win0_4.index t (1 : Fin 2) * 2048 + (j 1).val, by omega⟩ : Fin 8192) := by
    refine funext fun a => Fin.ext ?_
    match a with
    | ⟨0, _⟩ => show win0_4.index t (0 : Fin 2) * 2048 + 1 * (j 0).val = _; show _ = win0_4.index t (0 : Fin 2) * 2048 + (j 0).val; omega
    | ⟨1, _⟩ => show win0_4.index t (1 : Fin 2) * 2048 + 1 * (j 1).val = _; show _ = win0_4.index t (1 : Fin 2) * 2048 + (j 1).val; omega
  show k0_pay1 (iblk m c 0 t) (iblk m c 1 t) (iblk m c 2 t) (iblk m c 3 t) ((cfg0.win 4).xinj (grid0.coords t) j)
      = G (m ((c : Thread nD τ).loc main_arg0)) (m ((c : Thread nD τ).loc main_arg1)) (((cfg0.win 4).blk t).view.emb j)
  rw [hx, he, G_ix2]
  exact tile_entry m c t _ _ _ _ rfl rfl

/-! ## The cover, and the array after the run -/

/-- An index of the result array is in point `t`'s tile iff each coordinate is in the tile's range on its axis. -/
theorem mem_tile (t : Fin cfg0.N) (i : S8192x8192.Idx) :
    i ∈ ((cfg0.win 4).blk t).view.set ↔ ∀ a : Fin 2, win0_4.index t a * S2048x2048.size a ≤ (i a).val
      ∧ (i a).val < win0_4.index t a * S2048x2048.size a + S2048x2048.size a := by
  show i ∈ ((View.whole main_v7).slice (win0_4.rect t)).set ↔ _
  rw [View.set_slice_whole, Rect.mem_set_unit]
  exact Iff.rfl

/-- Every index of the result array is in some point's tile: the one at (i₀ / 2048, i₁ / 2048). -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := tile_onto ⟨(i 0).val / 2048, by omega⟩ ⟨(i 1).val / 2048, by omega⟩
  have q0 : win0_4.index t (0 : Fin 2) = (i 0).val / 2048 := congrFun ht 0
  have q1 : win0_4.index t (1 : Fin 2) = (i 1).val / 2048 := congrFun ht 1
  refine ⟨t, flush0_4 t, ?_⟩
  rw [mem_tile]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 2048 ≤ (i 1).val ∧ (i 1).val < win0_4.index t (1 : Fin 2) * 2048 + 2048; omega

/-- THE RESULT ARRAY after the run is the Gram matrix of the two arguments. -/
theorem final (c : Dev nD) :
    (dats m 0 c).arrAt 4 cfg0.N = G (m ((c : Thread nD τ).loc main_arg0)) (m ((c : Thread nD τ).loc main_arg1)) :=
  (dats m 0 c).arrAt_eq_of_cover 4 (G (m ((c : Thread nD τ).loc main_arg0)) (m ((c : Thread nD τ).loc main_arg1)))
    (fun t _ => flushed_eq m c t) covered

/-- The kernel's run, read: the result array at the Gram matrix of the arguments, the arguments unchanged. -/
theorem run : θ_run defs (onTc (τ := τ) (main (F := Ideal))) ⟨m, fun _ => 0, ρ⟩ fun r => ∀ c : Dev nD,
      r.2.mem ((c : Thread nD τ).loc main_v7)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.RbfValue

end
-- ==== Proof.lean ====
/-
  The Gaussian (RBF) Gram matrix of 8192 × 8192 pairs of points of dimension 64: a tiled kernel against the plain
  formula, equal over the extended reals.

  Both programs compute, at (p, q),  exp(-1 · max((‖x_p‖² + ‖y_q‖²) - 2 · ⟨x_p, y_q⟩, 0))  with the squared norms summed
  on the host (the float zero plus the 64 squares) and the same grouping of the additions (RbfSpec.lean: `G`).

    * The reference broadcasts the norms as a column and a row to the full matrix, contracts x with y over the
      coordinate axis in one `dot_general`, and applies the pointwise operations to whole matrices; read at an index
      one operation at a time it is `G` (RbfReference.lean).
    * The kernel lays the norms out as a column [8192, 1] and a row [1, 8192] on the host (RbfNorms.lean), and over a
      4 × 4 grid computes one [2048, 2048] tile per point: the two point blocks contracted on the matrix unit into a
      zero accumulator — the same sum of 64 products —, the norm blocks broadcast along the tile, the same pointwise
      operations (RbfPayload.lean).  The tile written at block position (bi, bj) is the block of `G` there, and the
      sixteen tiles cover the matrix (RbfBlocks.lean).

  No law of the extended reals joins the two sides — the terms agree as written — so the precondition (finite inputs)
  is never opened.  The three frames are the kernel's generated frame (at both instances) and the reference's generated
  run with the result dropped; the idealization rewrote no operation, so its conjunct is `True`.
-/
import proofs.«172928_j65481071402788_2_alg».proof.Defs
import proofs.«172928_j65481071402788_2_alg».proof.Proof.Gen.Kernel
import proofs.«172928_j65481071402788_2_alg».proof.Proof.Gen.Kernel.Skeleton
import proofs.«172928_j65481071402788_2_alg».proof.Proof.Gen.Kernel.Launch
import proofs.«172928_j65481071402788_2_alg».proof.Proof.Gen.Kernel.Points
import proofs.«172928_j65481071402788_2_alg».proof.Proof.Gen.Kernel.Frame
import proofs.«172928_j65481071402788_2_alg».proof.Proof.Gen.KernelIdeal
import proofs.«172928_j65481071402788_2_alg».proof.Proof.Gen.KernelIdeal.Skeleton
import proofs.«172928_j65481071402788_2_alg».proof.Proof.Gen.KernelIdeal.Launch
import proofs.«172928_j65481071402788_2_alg».proof.Proof.Gen.KernelIdeal.Points
import proofs.«172928_j65481071402788_2_alg».proof.Proof.Gen.KernelIdeal.Frame
import proofs.«172928_j65481071402788_2_alg».proof.Proof.Gen.ReferenceIdeal
import proofs.«172928_j65481071402788_2_alg».proof.Proof.Gen.Pre_finite_inputs
import proofs.«172928_j65481071402788_2_alg».proof.Proof.Gen.KernelIdeal.Value
import proofs.«172928_j65481071402788_2_alg».proof.Proof.Gen.ReferenceIdeal.Run
import proofs.«172928_j65481071402788_2_alg».proof.Proof.Gen.ReferenceIdeal.Read
import proofs.«172928_j65481071402788_2_alg».proof.Proof.RbfSpec
import proofs.«172928_j65481071402788_2_alg».proof.Proof.RbfReference
import proofs.«172928_j65481071402788_2_alg».proof.Proof.RbfBlocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and y both programs end with the Gram matrix `G` of x and y in their result. -/
theorem algebraic : Cert.algebraic_KernelIdeal_ReferenceIdeal := by
  intro m ρ m' ρ' _ hagree
  refine ⟨fun c => Cert.Rbf.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
